-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000x32 : Shape := ⟨2, ![800000, 32]⟩
abbrev S192x64 : Shape := ⟨2, ![192, 64]⟩
abbrev S64 : Shape := ⟨1, ![64]⟩
abbrev S96x64 : Shape := ⟨2, ![96, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S800000x32 : S_.BroadcastsInDim S800000x32 (![] : Fin 0 → Fin S800000x32.rank)
  reducesTo_S800000x32_S_d0_1 : S800000x32.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S96x64 : S_.BroadcastsInDim S96x64 (![] : Fin 0 → Fin S96x64.rank)
  reducesTo_S96x64_S_d0_1 : S96x64.ReducesTo [0, 1] S_

variable [Facts]

def fn_part1 {F : FTy → Type} [FloatOps F] (main_arg4 : FVec F S64 .f32) (main_arg5 : FVec F S96x64 .f32) (main_arg6 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S96x64 .f32 := Host.absf main_arg5
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : FVec F S800000x64 .f32) (main_arg2 : FVec F S800000x32 .f32) (main_arg3 : FVec F S192x64 .f32) (main_arg4 : FVec F S64 .f32) (main_arg5 : FVec F S96x64 .f32) (main_arg6 : FVec F S64 .f32) (main_arg7 : IVec S800000 32) (main_arg8 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S800000x32 .f32 := Host.absf main_arg2
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_v13 main_v16
-- ==== Kernel.lean ====
abbrev S50000x64 : Shape := ⟨2, ![50000, 64]⟩
abbrev S800000x64 : Shape := ⟨2, ![800000, 64]⟩
abbrev S800000x32 : Shape := ⟨2, ![800000, 32]⟩
abbrev S192x64 : Shape := ⟨2, ![192, 64]⟩
abbrev S64 : Shape := ⟨1, ![64]⟩
abbrev S96x64 : Shape := ⟨2, ![96, 64]⟩
abbrev S800000 : Shape := ⟨1, ![800000]⟩
abbrev S_ : Shape := ⟨0, ![]⟩
abbrev S800000x1 : Shape := ⟨2, ![800000, 1]⟩
abbrev S1x64 : Shape := ⟨2, ![1, 64]⟩
abbrev S3200x64 : Shape := ⟨2, ![3200, 64]⟩
abbrev S3200x32 : Shape := ⟨2, ![3200, 32]⟩
abbrev S64x64 : Shape := ⟨2, ![64, 64]⟩
abbrev S32x64 : Shape := ⟨2, ![32, 64]⟩

abbrev nBuf : Space → Nat
  | .hbm => 30
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000x32, .f32⟩
  | .hbm, ⟨3, _⟩ => ⟨S192x64, .f32⟩
  | .hbm, ⟨4, _⟩ => ⟨S64, .f32⟩
  | .hbm, ⟨5, _⟩ => ⟨S96x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S1x64, .f32⟩
  | .hbm, ⟨28, _⟩ => ⟨S1x64, .f32⟩
  | .hbm, ⟨29, _⟩ => ⟨S800000x64, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S3200x64, .f32⟩
  | .local _ .vmem, ⟨5, _⟩ => ⟨S3200x64, .f32⟩
  | .local _ .vmem, ⟨6, _⟩ => ⟨S3200x32, .f32⟩
  | .local _ .vmem, ⟨7, _⟩ => ⟨S3200x32, .f32⟩
  | .local _ .vmem, ⟨8, _⟩ => ⟨S192x64, .f32⟩
  | .local _ .vmem, ⟨9, _⟩ => ⟨S1x64, .f32⟩
  | .local _ .vmem, ⟨10, _⟩ => ⟨S96x64, .f32⟩
  | .local _ .vmem, ⟨11, _⟩ => ⟨S1x64, .f32⟩
  | .local _ .vmem, ⟨12, _⟩ => ⟨S3200x64, .f32⟩
  | .local _ .vmem, ⟨13, _⟩ => ⟨S3200x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  bitsLt_bf16_f32 : FTy.bits .bf16 < FTy.bits .f32
  inb_S3200x32_S3200x32_0_0 : ∀ a, (![0, 0] : Fin 2 → Nat) a + S3200x32.size a ≤ S3200x32.size a
  h_S3200x32 : 0 < S3200x32.numel
  inb_S192x64_S64x64_0_0 : ∀ a, (![0, 0] : Fin 2 → Nat) a + S64x64.size a ≤ S192x64.size a
  h_S64x64 : 0 < S64x64.numel
  inb_S192x64_S64x64_64_0 : ∀ a, (![64, 0] : Fin 2 → Nat) a + S64x64.size a ≤ S192x64.size a
  inb_S192x64_S64x64_128_0 : ∀ a, (![128, 0] : Fin 2 → Nat) a + S64x64.size a ≤ S192x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S96x64_S64x64_0_0 : ∀ a, (![0, 0] : Fin 2 → Nat) a + S64x64.size a ≤ S96x64.size a
  inb_S96x64_S32x64_64_0 : ∀ a, (![64, 0] : Fin 2 → Nat) a + S32x64.size a ≤ S96x64.size a
  h_S32x64 : 0 < S32x64.numel
  gather_S50000x64_S800000x1_S800000x64_1_0_n_n_0_1_164_wf : GatherDims.WF S50000x64 S800000x1 S800000x64 [1] [0] [] [0] [] 1 ![1, 64]
  dot_S3200x64_S64x64_S3200x64_1_0_0_1_n_n_wf : DotDims.WF S3200x64 S64x64 S3200x64 [1] [0] [0] [1] [] []
  dot_S3200x32_S32x64_S3200x64_1_0_0_1_n_n_wf : DotDims.WF S3200x32 S32x64 S3200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S800000x64.size a
  hwx0_2 : ∀ i : grid0.Coords, EltTy.bits .f32 = 32 ∨ (Rect.block (s := S800000x64) S3200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x32.size a ≤ S800000x32.size a
  hwx0_3 : ∀ i : grid0.Coords, EltTy.bits .f32 = 32 ∨ (Rect.block (s := S800000x32) S3200x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x64.size a ≤ S192x64.size a
  hwx0_4 : ∀ i : grid0.Coords, EltTy.bits .f32 = 32 ∨ (Rect.block (s := S192x64) S192x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x64.size a ≤ S96x64.size a
  hwx0_6 : ∀ i : grid0.Coords, EltTy.bits .f32 = 32 ∨ (Rect.block (s := S96x64) S96x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x64.size a ≤ S800000x64.size a
  hwx0_8 : ∀ i : grid0.Coords, EltTy.bits .f32 = 32 ∨ (Rect.block (s := S800000x64) S3200x64.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x32_S32x64_S3200x64_1_0_0_1_n_n : DotDims S3200x32 S32x64 S3200x64 where
  lhsContracting := [1]
  rhsContracting := [0]
  lhsNonContracting := [0]
  rhsNonContracting := [1]
  lhsBatch := []
  rhsBatch := []
  wf := dot_S3200x32_S32x64_S3200x64_1_0_0_1_n_n_wf

abbrev win0_0 : Pipeline.Window sig grid0 :=
  Pipeline.Window.ofSpec (Memref.whole main_v6) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3200x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S96x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S3200x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000x32 : Shape := ⟨2, ![800000, 32]⟩
abbrev S192x64 : Shape := ⟨2, ![192, 64]⟩
abbrev S64 : Shape := ⟨1, ![64]⟩
abbrev S96x64 : Shape := ⟨2, ![96, 64]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S1x64 : Shape := ⟨2, ![1, 64]⟩
abbrev S800000x96 : Shape := ⟨2, ![800000, 96]⟩

abbrev nBuf : Space → Nat
  | .hbm => 40
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000x32, .f32⟩
  | .hbm, ⟨3, _⟩ => ⟨S192x64, .f32⟩
  | .hbm, ⟨4, _⟩ => ⟨S64, .f32⟩
  | .hbm, ⟨5, _⟩ => ⟨S96x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x192, .f32⟩
  | .hbm, ⟨28, _⟩ => ⟨S800000x64, .f32⟩
  | .hbm, ⟨29, _⟩ => ⟨S1x64, .f32⟩
  | .hbm, ⟨30, _⟩ => ⟨S800000x64, .f32⟩
  | .hbm, ⟨31, _⟩ => ⟨S800000x64, .f32⟩
  | .hbm, ⟨32, _⟩ => ⟨S800000x96, .f32⟩
  | .hbm, ⟨33, _⟩ => ⟨S800000x64, .f32⟩
  | .hbm, ⟨34, _⟩ => ⟨S1x64, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  concatenates_S800000x64_S800000x32_S800000x96_d1 : Shape.Concatenates [S800000x64, S800000x32] S800000x96 1
  bcast_S_S800000x64 : S_.BroadcastsInDim S800000x64 (![] : Fin 0 → Fin S800000x64.rank)
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  dot_S800000x96_S96x64_S800000x64_1_0_0_1_n_n_wf : DotDims.WF S800000x96 S96x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf

class Facts : Prop extends Facts₀ where

variable [Facts]
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.KernelBody.lean ====
/-
  One grid point's block of the kernel, entry by entry.

  At a grid point the body holds a 3200-edge block of each per-edge array — the gathered source rows `P0`, the
  gathered target rows `P1`, the edge features `P2`, the extra features `P3` — the three 64-row bands of the first
  weight matrix (`P4`, `P5`, `P6`), the first bias as a 1×64 row (`P7`), the two bands of the second weight matrix
  (`P8`: 64 rows, `P9`: 32 rows) and the second bias as a 1×64 row (`P10`).  Every change of float format is the
  identity on the extended reals, every matrix product into the zero accumulator is the plain sum of products over
  the contracted coordinate, and a 1×64 row broadcast down the block is that row's entry in the column.  So entry
  (p, q) of what the body stores is

      max ( Σₖ hidden(p, k) · P8(k, q)  +  Σₖ P3(p, k) · P9(k, q)  +  P10(0, q) ,  0 )

  with hidden(p, k) = ((Σₗ P0(p, l) · P4(l, k) + Σₗ P2(p, l) · P5(l, k)) + Σₗ P1(p, l) · P6(l, k)) + P7(0, k).
-/
import proofs.«107688_j38740605010509_1_alg».proof.Proof.Gen.KernelIdeal.Value
import proofs.«107688_j38740605010509_1_alg».proof.Proof.LibPlainMatmul
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A 1×64 row (through the identity cast the body prints) broadcast down a 3200×64 block, read at (p, k), is the
    row's entry in column k. -/
theorem row_down_block (r : Vec Ideal S1x64 .f32) (p : Fin 3200) (k : Fin 64) :
    (broadcastTo S3200x64 (shapeCast S1x64 r shapeCasts_S1x64_S1x64) broadcasts_S1x64_S3200x64) (ix2 p k)
      = r (ix2 (0 : Fin 1) k) := by
  rw [shapeCast_self r]
  exact broadcastTo_apply r broadcasts_S1x64_S3200x64 (ix2 p k) (ix2 (0 : Fin 1) k) (fun a => match a with
    | ⟨0, _⟩ => by show 0 = (if (1 : Nat) = 1 then 0 else p.val); rw [if_pos rfl]
    | ⟨1, _⟩ => by show k.val = (if (64 : Nat) = 1 then 0 else k.val); rw [if_neg (by decide)])

/-- The first layer's block: the three band products, grouped (source + edge) + target, plus the bias row. -/
def hiddenBlock (P0 P1 P2 : Vec Ideal S3200x64 .f32) (P4 P5 P6 : Vec Ideal S64x64 .f32) (P7 : Vec Ideal S1x64 .f32) :
    FVec Ideal S3200x64 .f32 :=
  addf (addf (addf
      (matmul dot_S3200x64_S64x64_S3200x64_1_0_0_1_n_n none
        (truncf .bf16 (shapeCast S3200x64 P0 shapeCasts_S3200x64_S3200x64) bitsLt_bf16_f32) (truncf .bf16 P4 bitsLt_bf16_f32)
        (constant S3200x64 .f32 0x00000000#32))
      (matmul dot_S3200x64_S64x64_S3200x64_1_0_0_1_n_n none
        (truncf .bf16 P2 bitsLt_bf16_f32) (truncf .bf16 P5 bitsLt_bf16_f32) (constant S3200x64 .f32 0x00000000#32)))
      (matmul dot_S3200x64_S64x64_S3200x64_1_0_0_1_n_n none
        (truncf .bf16 (shapeCast S3200x64 P1 shapeCasts_S3200x64_S3200x64) bitsLt_bf16_f32) (truncf .bf16 P6 bitsLt_bf16_f32)
        (constant S3200x64 .f32 0x00000000#32)))
    (broadcastTo S3200x64 (shapeCast S1x64 P7 shapeCasts_S1x64_S1x64) broadcasts_S1x64_S3200x64)

/-- The body's payload before the second bias is the two band products of the second layer over that block. -/
theorem payload_eq (P0 P1 P2 : Vec Ideal S3200x64 .f32) (P3 : Vec Ideal S3200x32 .f32) (P4 P5 P6 : Vec Ideal S64x64 .f32)
    (P7 : Vec Ideal S1x64 .f32) (P8 : Vec Ideal S64x64 .f32) (P9 : Vec Ideal S32x64 .f32) :
    k0_pay2 (F := Ideal) P0 P1 P2 P3 P4 P5 P6 P7 P8 P9
      = addf
          (matmul dot_S3200x64_S64x64_S3200x64_1_0_0_1_n_n none
            (truncf .bf16 (hiddenBlock P0 P1 P2 P4 P5 P6 P7) bitsLt_bf16_f32) (truncf .bf16 P8 bitsLt_bf16_f32)
            (constant S3200x64 .f32 0x00000000#32))
          (matmul dot_S3200x32_S32x64_S3200x64_1_0_0_1_n_n none
            (truncf .bf16 P3 bitsLt_bf16_f32) (truncf .bf16 P9 bitsLt_bf16_f32) (constant S3200x64 .f32 0x00000000#32)) := rfl

/-- Hidden unit k of the block's edge p. -/
theorem hiddenBlock_apply (P0 P1 P2 : Vec Ideal S3200x64 .f32) (P4 P5 P6 : Vec Ideal S64x64 .f32)
    (P7 : Vec Ideal S1x64 .f32) (p : Fin 3200) (k : Fin 64) :
    hiddenBlock P0 P1 P2 P4 P5 P6 P7 (ix2 p k)
      = ((∑ l : Fin 64, P0 (ix2 p l) * P4 (ix2 l k) + ∑ l : Fin 64, P2 (ix2 p l) * P5 (ix2 l k))
          + ∑ l : Fin 64, P1 (ix2 p l) * P6 (ix2 l k)) + P7 (ix2 (0 : Fin 1) k) := by
  unfold hiddenBlock
  rw [shapeCast_self P0, shapeCast_self P1]
  have hA := PlainMatmul.matmul_zero_apply dot_S3200x64_S64x64_S3200x64_1_0_0_1_n_n rfl rfl rfl rfl rfl rfl none
    (truncf .bf16 P0 bitsLt_bf16_f32 : FVec Ideal S3200x64 .bf16) (truncf .bf16 P4 bitsLt_bf16_f32 : FVec Ideal S64x64 .bf16) p k
  have hB := PlainMatmul.matmul_zero_apply dot_S3200x64_S64x64_S3200x64_1_0_0_1_n_n rfl rfl rfl rfl rfl rfl none
    (truncf .bf16 P2 bitsLt_bf16_f32 : FVec Ideal S3200x64 .bf16) (truncf .bf16 P5 bitsLt_bf16_f32 : FVec Ideal S64x64 .bf16) p k
  have hC := PlainMatmul.matmul_zero_apply dot_S3200x64_S64x64_S3200x64_1_0_0_1_n_n rfl rfl rfl rfl rfl rfl none
    (truncf .bf16 P1 bitsLt_bf16_f32 : FVec Ideal S3200x64 .bf16) (truncf .bf16 P6 bitsLt_bf16_f32 : FVec Ideal S64x64 .bf16) p k
  have hR := row_down_block P7 p k
  exact congrArg₂ (· + ·) (congrArg₂ (· + ·) (congrArg₂ (· + ·) hA hB) hC) hR

/-- Entry (p, q) of the payload before the second bias. -/
theorem payload_apply (P0 P1 P2 : Vec Ideal S3200x64 .f32) (P3 : Vec Ideal S3200x32 .f32) (P4 P5 P6 : Vec Ideal S64x64 .f32)
    (P7 : Vec Ideal S1x64 .f32) (P8 : Vec Ideal S64x64 .f32) (P9 : Vec Ideal S32x64 .f32) (p : Fin 3200) (q : Fin 64) :
    k0_pay2 (F := Ideal) P0 P1 P2 P3 P4 P5 P6 P7 P8 P9 (ix2 p q)
      = ∑ k : Fin 64, (((∑ l : Fin 64, P0 (ix2 p l) * P4 (ix2 l k) + ∑ l : Fin 64, P2 (ix2 p l) * P5 (ix2 l k))
            + ∑ l : Fin 64, P1 (ix2 p l) * P6 (ix2 l k)) + P7 (ix2 (0 : Fin 1) k)) * P8 (ix2 k q)
        + ∑ k : Fin 32, P3 (ix2 p k) * P9 (ix2 k q) := by
  rw [payload_eq]
  have hX := PlainMatmul.matmul_zero_apply dot_S3200x64_S64x64_S3200x64_1_0_0_1_n_n rfl rfl rfl rfl rfl rfl none
    (truncf .bf16 (hiddenBlock P0 P1 P2 P4 P5 P6 P7) bitsLt_bf16_f32 : FVec Ideal S3200x64 .bf16)
    (truncf .bf16 P8 bitsLt_bf16_f32 : FVec Ideal S64x64 .bf16) p q
  have hY := PlainMatmul.matmul_zero_apply dot_S3200x32_S32x64_S3200x64_1_0_0_1_n_n rfl rfl rfl rfl rfl rfl none
    (truncf .bf16 P3 bitsLt_bf16_f32 : FVec Ideal S3200x32 .bf16) (truncf .bf16 P9 bitsLt_bf16_f32 : FVec Ideal S32x64 .bf16) p q
  have hH : ∑ k : Fin 64, hiddenBlock P0 P1 P2 P4 P5 P6 P7 (ix2 p k) * P8 (ix2 k q)
      = ∑ k : Fin 64, (((∑ l : Fin 64, P0 (ix2 p l) * P4 (ix2 l k) + ∑ l : Fin 64, P2 (ix2 p l) * P5 (ix2 l k))
            + ∑ l : Fin 64, P1 (ix2 p l) * P6 (ix2 l k)) + P7 (ix2 (0 : Fin 1) k)) * P8 (ix2 k q) :=
    Finset.sum_congr rfl fun k _ => congrArg (· * P8 (ix2 k q)) (hiddenBlock_apply P0 P1 P2 P4 P5 P6 P7 p k)
  exact congrArg₂ (· + ·) (hX.trans hH) hY

/-- Entry (p, q) of the block the body stores: the payload plus the second bias row, clipped below at the f32 zero
    word. -/
theorem block_apply (P0 P1 P2 : Vec Ideal S3200x64 .f32) (P3 : Vec Ideal S3200x32 .f32) (P4 P5 P6 : Vec Ideal S64x64 .f32)
    (P7 : Vec Ideal S1x64 .f32) (P8 : Vec Ideal S64x64 .f32) (P9 : Vec Ideal S32x64 .f32) (P10 : Vec Ideal S1x64 .f32)
    (p : Fin 3200) (q : Fin 64) :
    Cert.KernelIdeal.Value.E8 (F := Ideal) P0 P1 P2 P3 P4 P5 P6 P7 P8 P9 P10 (ix2 p q)
      = max ((∑ k : Fin 64, (((∑ l : Fin 64, P0 (ix2 p l) * P4 (ix2 l k) + ∑ l : Fin 64, P2 (ix2 p l) * P5 (ix2 l k))
              + ∑ l : Fin 64, P1 (ix2 p l) * P6 (ix2 l k)) + P7 (ix2 (0 : Fin 1) k)) * P8 (ix2 k q)
            + ∑ k : Fin 32, P3 (ix2 p k) * P9 (ix2 k q)) + P10 (ix2 (0 : Fin 1) q))
          (Ideal.ofBits .f32 0x00000000#32) := by
  have e0 : Cert.KernelIdeal.Value.ix8_0 (ix2 p q) = ix2 p q := by
    funext a; match a with | ⟨0, _⟩ => rfl | ⟨1, _⟩ => rfl
  have e1 : Cert.KernelIdeal.Value.ix8_1 (ix2 p q) = ix2 (0 : Fin 1) q := by
    funext a; match a with | ⟨0, _⟩ => rfl | ⟨1, _⟩ => rfl
  show max (k0_pay2 (F := Ideal) P0 P1 P2 P3 P4 P5 P6 P7 P8 P9 (Cert.KernelIdeal.Value.ix8_0 (ix2 p q))
      + P10 (Cert.KernelIdeal.Value.ix8_1 (ix2 p q))) (Ideal.ofBits .f32 0x00000000#32) = _
  rw [e0, e1, payload_apply]

end Cert.KernelIdeal.Body

end
-- ==== Proof.EdgeMlp.lean ====
/-
  The edge network as a function of one edge's data, and the law that joins the two programs.

  An edge carries the 64 features of its source node (`s`), its own 64 features (`g`), the 64 features of its
  target node (`d`) and 32 extra features (`x`).  The first layer reads the 192-vector (source, edge, target) against
  a 192×64 matrix `W1` and adds the bias `b1`; the second reads the 96-vector (hidden, extra) against a 96×64 matrix
  `W2`, adds the bias `b2`, and clips the result below at zero.  Edges do not interact: an edge's 64 outputs are a
  function of its own four rows and of the shared weights, which is why the computation can be cut into blocks of
  edges in any way.

  Written out per entry, the 192-term contraction is three 64-term contractions against the three row bands of
  `W1` (rows 0–63, 64–127, 128–191), and the 96-term contraction is a 64-term one against rows 0–63 of `W2` plus a
  32-term one against rows 64–95.  That a sum over 192 (or 96) consecutive indices is the sum of the sums over
  its consecutive bands needs only that addition is associative and commutative, so it holds on the extended
  reals at infinite entries too: nothing here asks the data to be finite.

  The data enter as functions of their coordinates, so that an array of any layout (a 1×64 row or a 64-vector
  for a bias, a row of a block or of the whole array for an edge's features) supplies them by saying what it holds
  at each coordinate.
-/
import Idealize.ShloMosaic.PureOps.Ideal

noncomputable section

open scoped BigOperators

namespace Cert.EdgeMlp

/-! ## The row bands of the two weight matrices -/

/-- Row `l` of the first band of `W1` (the rows that meet the source node's features). -/
abbrev srcRow (l : Fin 64) : Fin 192 := ⟨l.val, by omega⟩
/-- Row `64 + l`: the second band of `W1` (the rows that meet the edge's own features). -/
abbrev edgeRow (l : Fin 64) : Fin 192 := ⟨64 + l.val, by omega⟩
/-- Row `128 + l`: the third band of `W1` (the rows that meet the target node's features). -/
abbrev dstRow (l : Fin 64) : Fin 192 := ⟨128 + l.val, by omega⟩
/-- Row `k` of the first band of `W2` (the rows that meet the hidden vector). -/
abbrev hidRow (k : Fin 64) : Fin 96 := ⟨k.val, by omega⟩
/-- Row `64 + k`: the second band of `W2` (the rows that meet the extra features). -/
abbrev extRow (k : Fin 32) : Fin 96 := ⟨64 + k.val, by omega⟩

/-! ## A sum over consecutive indices, band by band -/

/-- A sum over 192 consecutive indices is the sum over its three bands of 64, in any commutative monoid. -/
theorem sum_three_bands {M : Type*} [AddCommMonoid M] (f : Fin 192 → M) :
    ∑ k : Fin 192, f k
      = (∑ l : Fin 64, f (srcRow l) + ∑ l : Fin 64, f (edgeRow l)) + ∑ l : Fin 64, f (dstRow l) := by
  have h1 : ∑ k : Fin 192, f k
      = ∑ l : Fin 128, f (Fin.castAdd 64 l) + ∑ l : Fin 64, f (Fin.natAdd 128 l) :=
    Fin.sum_univ_add (a := 128) (b := 64) f
  have h2 : ∑ l : Fin 128, f (Fin.castAdd 64 l)
      = ∑ l : Fin 64, f (Fin.castAdd 64 (Fin.castAdd 64 l)) + ∑ l : Fin 64, f (Fin.castAdd 64 (Fin.natAdd 64 l)) :=
    Fin.sum_univ_add (a := 64) (b := 64) fun l => f (Fin.castAdd 64 l)
  rw [h1, h2]
  rfl

/-- A sum over 96 consecutive indices is the sum over its band of 64 and its band of 32. -/
theorem sum_two_bands {M : Type*} [AddCommMonoid M] (f : Fin 96 → M) :
    ∑ k : Fin 96, f k = ∑ l : Fin 64, f (hidRow l) + ∑ l : Fin 32, f (extRow l) := by
  have h1 : ∑ k : Fin 96, f k
      = ∑ l : Fin 64, f (Fin.castAdd 32 l) + ∑ l : Fin 32, f (Fin.natAdd 64 l) :=
    Fin.sum_univ_add (a := 64) (b := 32) f
  rw [h1]
  rfl

/-! ## One edge through the network -/

/-- Hidden unit `k` of an edge with source row `s`, target row `d` and own row `g`: the three band contractions
    of the first layer, grouped as (source + edge) + target, plus the bias. -/
def hidden (s d g : Fin 64 → EReal) (W1 : Fin 192 → Fin 64 → EReal) (b1 : Fin 64 → EReal) (k : Fin 64) : EReal :=
  ((∑ l : Fin 64, s l * W1 (srcRow l) k + ∑ l : Fin 64, g l * W1 (edgeRow l) k)
    + ∑ l : Fin 64, d l * W1 (dstRow l) k) + b1 k

/-- Output `j` of that edge, whose extra features are `x`: the two band contractions of the second layer plus the
    bias, clipped below at the floor `z` (the zero of the format, kept as the word both programs print). -/
def output (s d g : Fin 64 → EReal) (x : Fin 32 → EReal) (W1 : Fin 192 → Fin 64 → EReal) (b1 : Fin 64 → EReal)
    (W2 : Fin 96 → Fin 64 → EReal) (b2 : Fin 64 → EReal) (z : EReal) (j : Fin 64) : EReal :=
  max ((∑ k : Fin 64, hidden s d g W1 b1 k * W2 (hidRow k) j + ∑ k : Fin 32, x k * W2 (extRow k) j) + b2 j) z

end Cert.EdgeMlp

end
-- ==== Proof.KernelArray.lean ====
/-
  From one grid point's block to the whole output array.

  The grid has 250 points; point `t` handles the 3200 edges `3200·t … 3200·t + 3199`.  Its blocks of the four
  per-edge arrays (gathered source rows, gathered target rows, edge features, extra features) and of the output are
  those rows of the arrays, all 64 (or 32) columns; the two weight matrices and the two bias rows are taken whole at
  every point.  So row `p` of a point's stored block is the network's output for edge `3200·t + p`, computed from
  that edge's own rows of the arrays and the shared weights: the stored block is block `t` of ONE array, the
  network applied edge by edge.  The 250 blocks tile the 800000 rows (the point that covers row `r` is `r / 3200`),
  so after the run the output array is that array.

  The arrays the region finds are the arguments themselves, except the two gathered arrays — the host's gathers of
  the node table at the source and target indices, kept here as the terms the program prints — and the two biases,
  which the host recasts from 64-vectors to 1×64 rows.
-/
import proofs.«107688_j38740605010509_1_alg».proof.Proof.KernelBody
import proofs.«107688_j38740605010509_1_alg».proof.Proof.EdgeMlp
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## A point's stored block from its input blocks -/

/-- Through the rectangle that is a whole 3200×64 buffer, position (p, l) is the buffer's (p, l). -/
theorem at_block (p : Fin 3200) (l : Fin 64) : r0_0.idx (ix2 p l) = ix2 p l :=
  funext fun a => Fin.ext (by
    match a with
    | ⟨0, _⟩ => show 0 + 1 * p.val = p.val; omega
    | ⟨1, _⟩ => show 0 + 1 * l.val = l.val; omega)

/-- The same for a whole 3200×32 buffer. -/
theorem at_block32 (p : Fin 3200) (k : Fin 32) : r0_1.idx (ix2 p k) = ix2 p k :=
  funext fun a => Fin.ext (by
    match a with
    | ⟨0, _⟩ => show 0 + 1 * p.val = p.val; omega
    | ⟨1, _⟩ => show 0 + 1 * k.val = k.val; omega)

/-- The same for a whole 1×64 row. -/
theorem at_row (k : Fin 64) : r0_5.idx (ix2 (0 : Fin 1) k) = ix2 (0 : Fin 1) k :=
  funext fun a => Fin.ext (by
    match a with
    | ⟨0, _⟩ => show 0 + 1 * 0 = 0; omega
    | ⟨1, _⟩ => show 0 + 1 * k.val = k.val; omega)

/-- Position (l, k) of the first 64-row band of the 192×64 weight buffer is the buffer's row l. -/
theorem at_src (l k : Fin 64) : r0_2.idx (ix2 l k) = ix2 (EdgeMlp.srcRow l) k :=
  funext fun a => Fin.ext (by
    match a with
    | ⟨0, _⟩ => show 0 + 1 * l.val = l.val; omega
    | ⟨1, _⟩ => show 0 + 1 * k.val = k.val; omega)

/-- Of the second band: row 64 + l. -/
theorem at_edge (l k : Fin 64) : r0_3.idx (ix2 l k) = ix2 (EdgeMlp.edgeRow l) k :=
  funext fun a => Fin.ext (by
    match a with
    | ⟨0, _⟩ => show 64 + 1 * l.val = 64 + l.val; omega
    | ⟨1, _⟩ => show 0 + 1 * k.val = k.val; omega)

/-- Of the third band: row 128 + l. -/
theorem at_dst (l k : Fin 64) : r0_4.idx (ix2 l k) = ix2 (EdgeMlp.dstRow l) k :=
  funext fun a => Fin.ext (by
    match a with
    | ⟨0, _⟩ => show 128 + 1 * l.val = 128 + l.val; omega
    | ⟨1, _⟩ => show 0 + 1 * k.val = k.val; omega)

/-- Position (k, q) of the first 64-row band of the 96×64 weight buffer is the buffer's row k. -/
theorem at_hid (k q : Fin 64) : r0_6.idx (ix2 k q) = ix2 (EdgeMlp.hidRow k) q :=
  funext fun a => Fin.ext (by
    match a with
    | ⟨0, _⟩ => show 0 + 1 * k.val = k.val; omega
    | ⟨1, _⟩ => show 0 + 1 * q.val = q.val; omega)

/-- Of its second band: row 64 + k. -/
theorem at_ext (k : Fin 32) (q : Fin 64) : r0_7.idx (ix2 k q) = ix2 (EdgeMlp.extRow k) q :=
  funext fun a => Fin.ext (by
    match a with
    | ⟨0, _⟩ => show 64 + 1 * k.val = 64 + k.val; omega
    | ⟨1, _⟩ => show 0 + 1 * q.val = q.val; omega)

/-- Row `p` of the block a point stores is the network's output for the edge whose four rows are row `p` of the
    point's four per-edge blocks, with the weights and biases the point's (whole) weight and bias buffers. -/
theorem stored_apply (x0 x1 x2 : Vec Ideal S3200x64 .f32) (x3 : Vec Ideal S3200x32 .f32) (x4 : Vec Ideal S192x64 .f32)
    (x5 : Vec Ideal S1x64 .f32) (x6 : Vec Ideal S96x64 .f32) (x7 : Vec Ideal S1x64 .f32) (p : Fin 3200) (q : Fin 64) :
    out0_8 (F := Ideal) x0 x1 x2 x3 x4 x5 x6 x7 (ix2 p q)
      = EdgeMlp.output (fun l => x0 (ix2 p l)) (fun l => x1 (ix2 p l)) (fun l => x2 (ix2 p l)) (fun k => x3 (ix2 p k))
          (fun a b => x4 (ix2 a b)) (fun k => x5 (ix2 (0 : Fin 1) k)) (fun a b => x6 (ix2 a b))
          (fun k => x7 (ix2 (0 : Fin 1) k)) (Ideal.ofBits .f32 0x00000000#32) q := by
  unfold out0_8
  rw [Value.canon8_eq, Body.block_apply]
  simp only [View.ld, at_block, at_block32, at_row, at_src, at_edge, at_dst, at_hid, at_ext]
  rfl

/-! ## Which rows a point's blocks are -/

/-- Every per-edge window and the output window are at block row `t`, block column 0; every weight and bias window
    is at block (0, 0): decided over the 250 points. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- The grid's points number 250. -/
theorem point_lt (t : Fin cfg0.N) : t.val < 250 := by
  have h := t.isLt
  have hN : cfg0.N = 250 := N_0
  omega

/-! ## The output array -/

/-- The network applied edge by edge: entry (r, j) is output `j` of the edge whose rows are row `r` of the four
    per-edge arrays. -/
def edgewise (HS HD EH : S800000x64.Idx → EReal) (EXT : S800000x32.Idx → EReal) (W1 : S192x64.Idx → EReal)
    (B1 : S1x64.Idx → EReal) (W2 : S96x64.Idx → EReal) (B2 : S1x64.Idx → EReal) : S800000x64.Idx → EReal :=
  fun i => EdgeMlp.output (fun l => HS (ix2 (i 0) l)) (fun l => HD (ix2 (i 0) l)) (fun l => EH (ix2 (i 0) l))
    (fun k => EXT (ix2 (i 0) k)) (fun a b => W1 (ix2 a b)) (fun k => B1 (ix2 (0 : Fin 1) k)) (fun a b => W2 (ix2 a b))
    (fun k => B2 (ix2 (0 : Fin 1) k)) (Ideal.ofBits .f32 0x00000000#32) (i 1)

variable (m : (ℓ : Loc nD τ sig) → Buf (Elt Ideal) ℓ) (ρ : Dev nD → PrngReg)

/-- What point `t` writes back is block `t` of the edgewise network of the arrays the region finds. -/
theorem flushed_eq (c : Dev nD) (t : Fin cfg0.N) :
    (dats m 0 c).flushed 8 t = ((cfg0.win 8).blk t).view.read (Elt Ideal)
      (edgewise (V m c main_v6) (V m c main_v13) (V m c main_arg1) (V m c main_arg2) (V m c main_arg3)
        (V m c main_v14) (V m c main_arg5) (V m c main_v15)) := by
  rw [Value.flushed8]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := block_indices t
  have ht := point_lt t
  funext y
  obtain ⟨p, q, rfl⟩ : ∃ (p : Fin 3200) (q : Fin 64), y = ix2 p q := ⟨y 0, y 1, eq_ix2 y⟩
  show out0_8 (F := Ideal) (iblk m c 0 t) (iblk m c 1 t) (iblk m c 2 t) (iblk m c 3 t) (iblk m c 4 t) (iblk m c 5 t)
      (iblk m c 6 t) (iblk m c 7 t) (ix2 p q)
    = edgewise (V m c main_v6) (V m c main_v13) (V m c main_arg1) (V m c main_arg2) (V m c main_arg3)
        (V m c main_v14) (V m c main_arg5) (V m c main_v15) (((cfg0.win 8).blk t).view.emb (ix2 p q))
  rw [stored_apply]
  -- the edge this row is
  have hp := p.isLt
  have hr : t.val * 3200 + p.val < 800000 := by omega
  have e8 : ((cfg0.win 8).blk t).view.emb (ix2 p q) = ix2 (⟨t.val * 3200 + p.val, hr⟩ : Fin 800000) q := by
    funext a; apply Fin.ext
    match a with
    | ⟨0, _⟩ => show win0_8.index t (0 : Fin 2) * 3200 + 1 * p.val = t.val * 3200 + p.val; omega
    | ⟨1, _⟩ => show win0_8.index t (1 : Fin 2) * 64 + 1 * q.val = q.val; omega
  have e0 : ∀ l : Fin 64, ((cfg0.win 0).blk t).view.emb (ix2 p l) = ix2 (⟨t.val * 3200 + p.val, hr⟩ : Fin 800000) l := fun l => by
    funext a; apply Fin.ext
    match a with
    | ⟨0, _⟩ => show win0_0.index t (0 : Fin 2) * 3200 + 1 * p.val = t.val * 3200 + p.val; omega
    | ⟨1, _⟩ => show win0_0.index t (1 : Fin 2) * 64 + 1 * l.val = l.val; omega
  have e1 : ∀ l : Fin 64, ((cfg0.win 1).blk t).view.emb (ix2 p l) = ix2 (⟨t.val * 3200 + p.val, hr⟩ : Fin 800000) l := fun l => by
    funext a; apply Fin.ext
    match a with
    | ⟨0, _⟩ => show win0_1.index t (0 : Fin 2) * 3200 + 1 * p.val = t.val * 3200 + p.val; omega
    | ⟨1, _⟩ => show win0_1.index t (1 : Fin 2) * 64 + 1 * l.val = l.val; omega
  have e2 : ∀ l : Fin 64, ((cfg0.win 2).blk t).view.emb (ix2 p l) = ix2 (⟨t.val * 3200 + p.val, hr⟩ : Fin 800000) l := fun l => by
    funext a; apply Fin.ext
    match a with
    | ⟨0, _⟩ => show win0_2.index t (0 : Fin 2) * 3200 + 1 * p.val = t.val * 3200 + p.val; omega
    | ⟨1, _⟩ => show win0_2.index t (1 : Fin 2) * 64 + 1 * l.val = l.val; omega
  have e3 : ∀ k : Fin 32, ((cfg0.win 3).blk t).view.emb (ix2 p k) = ix2 (⟨t.val * 3200 + p.val, hr⟩ : Fin 800000) k := fun k => by
    funext a; apply Fin.ext
    match a with
    | ⟨0, _⟩ => show win0_3.index t (0 : Fin 2) * 3200 + 1 * p.val = t.val * 3200 + p.val; omega
    | ⟨1, _⟩ => show win0_3.index t (1 : Fin 2) * 32 + 1 * k.val = k.val; omega
  have e4 : ∀ (a : Fin 192) (b : Fin 64), ((cfg0.win 4).blk t).view.emb (ix2 a b) = ix2 a b := fun a b => by
    funext d; apply Fin.ext
    match d with
    | ⟨0, _⟩ => show win0_4.index t (0 : Fin 2) * 192 + 1 * a.val = a.val; omega
    | ⟨1, _⟩ => show win0_4.index t (1 : Fin 2) * 64 + 1 * b.val = b.val; omega
  have e5 : ∀ k : Fin 64, ((cfg0.win 5).blk t).view.emb (ix2 (0 : Fin 1) k) = ix2 (0 : Fin 1) k := fun k => by
    funext d; apply Fin.ext
    match d with
    | ⟨0, _⟩ => show win0_5.index t (0 : Fin 2) * 1 + 1 * 0 = 0; omega
    | ⟨1, _⟩ => show win0_5.index t (1 : Fin 2) * 64 + 1 * k.val = k.val; omega
  have e6 : ∀ (a : Fin 96) (b : Fin 64), ((cfg0.win 6).blk t).view.emb (ix2 a b) = ix2 a b := fun a b => by
    funext d; apply Fin.ext
    match d with
    | ⟨0, _⟩ => show win0_6.index t (0 : Fin 2) * 96 + 1 * a.val = a.val; omega
    | ⟨1, _⟩ => show win0_6.index t (1 : Fin 2) * 64 + 1 * b.val = b.val; omega
  have e7 : ∀ k : Fin 64, ((cfg0.win 7).blk t).view.emb (ix2 (0 : Fin 1) k) = ix2 (0 : Fin 1) k := fun k => by
    funext d; apply Fin.ext
    match d with
    | ⟨0, _⟩ => show win0_7.index t (0 : Fin 2) * 1 + 1 * 0 = 0; omega
    | ⟨1, _⟩ => show win0_7.index t (1 : Fin 2) * 64 + 1 * k.val = k.val; omega
  rw [e8]
  unfold edgewise
  show EdgeMlp.output (fun l => V m c main_v6 (((cfg0.win 0).blk t).view.emb (ix2 p l)))
      (fun l => V m c main_v13 (((cfg0.win 1).blk t).view.emb (ix2 p l)))
      (fun l => V m c main_arg1 (((cfg0.win 2).blk t).view.emb (ix2 p l)))
      (fun k => V m c main_arg2 (((cfg0.win 3).blk t).view.emb (ix2 p k)))
      (fun a b => V m c main_arg3 (((cfg0.win 4).blk t).view.emb (ix2 a b)))
      (fun k => V m c main_v14 (((cfg0.win 5).blk t).view.emb (ix2 (0 : Fin 1) k)))
      (fun a b => V m c main_arg5 (((cfg0.win 6).blk t).view.emb (ix2 a b)))
      (fun k => V m c main_v15 (((cfg0.win 7).blk t).view.emb (ix2 (0 : Fin 1) k)))
      (Ideal.ofBits .f32 0x00000000#32) q = _
  simp only [e0, e1, e2, e3, e4, e5, e6, e7]

/-- An index of the output array is in point `t`'s block iff each coordinate is in the block's range on its axis. -/
theorem mem_block (t : Fin cfg0.N) (i : S800000x64.Idx) :
    i ∈ ((cfg0.win 8).blk t).view.set ↔ ∀ a : Fin 2, win0_8.index t a * S3200x64.size a ≤ (i a).val
      ∧ (i a).val < win0_8.index t a * S3200x64.size a + S3200x64.size a := by
  show i ∈ ((View.whole main_v16).slice (win0_8.rect t)).set ↔ _
  rw [View.set_slice_whole, Rect.mem_set_unit]
  exact Iff.rfl

/-- The blocks tile the array: row `r` is in the block of point `r / 3200`. -/
theorem covered (i : S800000x64.Idx) :
    ∃ t : Fin cfg0.N, (cfg0.win 8).flush t = true ∧ i ∈ ((cfg0.win 8).blk t).view.set := by
  have hi0 : (i 0).val < 800000 := (i 0).isLt
  have hi1 : (i 1).val < 64 := (i 1).isLt
  have hN : (i 0).val / 3200 < cfg0.N := by
    have h : cfg0.N = 250 := N_0
    omega
  refine ⟨⟨(i 0).val / 3200, hN⟩, flush0_8 _, ?_⟩
  rw [mem_block]
  obtain ⟨-, -, -, -, -, -, -, -, a8, b8⟩ := block_indices ⟨(i 0).val / 3200, hN⟩
  intro a
  match a with
  | ⟨0, _⟩ =>
    show win0_8.index ⟨(i 0).val / 3200, hN⟩ (0 : Fin 2) * 3200 ≤ (i 0).val
      ∧ (i 0).val < win0_8.index ⟨(i 0).val / 3200, hN⟩ (0 : Fin 2) * 3200 + 3200
    rw [a8]
    show (i 0).val / 3200 * 3200 ≤ (i 0).val ∧ (i 0).val < (i 0).val / 3200 * 3200 + 3200
    omega
  | ⟨1, _⟩ =>
    show win0_8.index ⟨(i 0).val / 3200, hN⟩ (1 : Fin 2) * 64 ≤ (i 1).val
      ∧ (i 1).val < win0_8.index ⟨(i 0).val / 3200, hN⟩ (1 : Fin 2) * 64 + 64
    rw [b8]
    omega

/-- After the run the output array is the edgewise network of the arrays the region finds. -/
theorem final (c : Dev nD) :
    (dats m 0 c).arrAt 8 cfg0.N
      = edgewise (V m c main_v6) (V m c main_v13) (V m c main_arg1) (V m c main_arg2) (V m c main_arg3)
          (V m c main_v14) (V m c main_arg5) (V m c main_v15) :=
  (dats m 0 c).arrAt_eq_of_cover 8 _ (fun t _ => flushed_eq m c t) covered

end Cert.KernelIdeal.Whole

end
-- ==== Proof.KernelHost.lean ====
/-
  What the region finds in the windows the host wrote.

  Before the region the host gathers the rows of the node table at the source indices and at the target indices
  (an index below zero first has the table's height added, as indexing from the end), and recasts each 64-entry
  bias as a 1×64 row.  The gathered arrays are kept as the terms the program prints: the reference prints the same
  gathers, so nothing about which rows they read is ever needed.  A 64-vector recast as a 1×64 row holds at (0, k)
  the vector's entry k.
-/
import proofs.«107688_j38740605010509_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

/-- The rows of the node table `h` at the indices `ix`, as the host computes them: a negative index is first
    moved up by the table's height, then the rows are gathered. -/
def gathered (h : (⟨S50000x64, .f32⟩ : BufTy).Contents (Elt Ideal)) (ix : (⟨S800000, .i32⟩ : BufTy).Contents (Elt Ideal)) :
    (⟨S800000x64, .f32⟩ : BufTy).Contents (Elt Ideal) :=
  Host.gather gather_S50000x64_S800000x1_S800000x64_1_0_n_n_0_1_164 h
    (broadcastInDim S800000x1 ![0] bcast_S800000_S800000x1_0
      (select (cmpi .slt ix (broadcastInDim S800000 ![] bcast_S_S800000 (constantI S_ 32 0#32)))
        (addi ix (broadcastInDim S800000 ![] bcast_S_S800000 (constantI S_ 32 50000#32))) ix))

/-- A 64-vector recast as a 1×64 row, read at (0, k), is the vector's entry k. -/
theorem row_of_vector (x : S64.Idx → EReal) (k : Fin 64) :
    shapeCast S1x64 x shapeCasts_S64_S1x64 (ix2 (0 : Fin 1) k) = x (ix1 k) :=
  shapeCast_apply x shapeCasts_S64_S1x64 (ix2 (0 : Fin 1) k) (ix1 k) (by
    rw [Shape.rowMajor_val_one, Shape.rowMajor_val_two]
    show k.val = 0 * 64 + k.val
    omega)

variable (m : (ℓ : Loc nD τ sig) → Buf (Elt Ideal) ℓ)

/-- Window 0's array: the node table's rows at the source indices. -/
theorem source_rows (c : Dev nD) :
    (V m c main_v6 : S800000x64.Idx → EReal)
      = gathered (m ((c : Thread nD τ).loc main_arg0)) (m ((c : Thread nD τ).loc main_arg7)) := by
  dsimp only [Gen.V, Gen.hostOps0]
  after_results
  rfl

/-- Window 1's array: the node table's rows at the target indices. -/
theorem target_rows (c : Dev nD) :
    (V m c main_v13 : S800000x64.Idx → EReal)
      = gathered (m ((c : Thread nD τ).loc main_arg0)) (m ((c : Thread nD τ).loc main_arg8)) := by
  dsimp only [Gen.V, Gen.hostOps0]
  after_results
  rfl

/-- Window 5's array: the first bias as a 1×64 row. -/
theorem first_bias (c : Dev nD) :
    (V m c main_v14 : S1x64.Idx → EReal)
      = shapeCast S1x64 (m ((c : Thread nD τ).loc main_arg4)) shapeCasts_S64_S1x64 := by
  dsimp only [Gen.V, Gen.hostOps0]
  after_results
  rfl

/-- Window 7's array: the second bias as a 1×64 row. -/
theorem second_bias (c : Dev nD) :
    (V m c main_v15 : S1x64.Idx → EReal)
      = shapeCast S1x64 (m ((c : Thread nD τ).loc main_arg6)) shapeCasts_S64_S1x64 := by
  dsimp only [Gen.V, Gen.hostOps0]
  after_results
  rfl

end Cert.KernelIdeal.HostSide

end
-- ==== Proof.ReferenceMlp.lean ====
/-
  The reference, edge by edge.

  The reference joins each edge's source row, own row and target row into one 192-vector and contracts it against
  the whole first weight matrix; then joins the 64 hidden units and the 32 extra features into one 96-vector and
  contracts it against the whole second weight matrix.  A joined vector read in a band is the piece that band came
  from, so each whole contraction, cut into its bands, is the network's band-by-band sum: entry (e, j) of the
  reference's result is the network's output `j` for the edge whose rows are row `e` of the gathered source rows,
  the gathered target rows, the edge features and the extra features.
-/
import proofs.«107688_j38740605010509_1_alg».proof.Proof.Gen.ReferenceIdeal.Read
import proofs.«107688_j38740605010509_1_alg».proof.Proof.EdgeMlp
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-! ## A joined row read in a band -/

/-- Three 64-column arrays joined along the columns, read in columns 0–63: the first array. -/
theorem joined_src (A B C : S800000x64.Idx → EReal) (e : Fin 800000) (l : Fin 64) :
    concatenate S800000x192 1 [⟨S800000x64, A⟩, ⟨S800000x64, B⟩, ⟨S800000x64, C⟩]
        concatenates_S800000x64_S800000x64_S800000x64_S800000x192_d1 (ix2 e (EdgeMlp.srcRow l))
      = A (ix2 e l) :=
  concatenate_apply_piece (1 : Fin 2) _ _ (ix2 e (EdgeMlp.srcRow l)) 0 (by show (0 : Nat) < 3; omega) S800000x64 A rfl rfl 0 rfl (ix2 e l)
    (fun b hb => by
      match b with
      | ⟨0, _⟩ => rfl
      | ⟨1, _⟩ => exact absurd rfl hb)
    (by show 0 + l.val = l.val; omega)

/-- Read in columns 64–127: the second array. -/
theorem joined_edge (A B C : S800000x64.Idx → EReal) (e : Fin 800000) (l : Fin 64) :
    concatenate S800000x192 1 [⟨S800000x64, A⟩, ⟨S800000x64, B⟩, ⟨S800000x64, C⟩]
        concatenates_S800000x64_S800000x64_S800000x64_S800000x192_d1 (ix2 e (EdgeMlp.edgeRow l))
      = B (ix2 e l) :=
  concatenate_apply_piece (1 : Fin 2) _ _ (ix2 e (EdgeMlp.edgeRow l)) 1 (by show (1 : Nat) < 3; omega) S800000x64 B rfl rfl 64 rfl (ix2 e l)
    (fun b hb => by
      match b with
      | ⟨0, _⟩ => rfl
      | ⟨1, _⟩ => exact absurd rfl hb)
    (by show 64 + l.val = 64 + l.val; rfl)

/-- Read in columns 128–191: the third array. -/
theorem joined_dst (A B C : S800000x64.Idx → EReal) (e : Fin 800000) (l : Fin 64) :
    concatenate S800000x192 1 [⟨S800000x64, A⟩, ⟨S800000x64, B⟩, ⟨S800000x64, C⟩]
        concatenates_S800000x64_S800000x64_S800000x64_S800000x192_d1 (ix2 e (EdgeMlp.dstRow l))
      = C (ix2 e l) :=
  concatenate_apply_piece (1 : Fin 2) _ _ (ix2 e (EdgeMlp.dstRow l)) 2 (by show (2 : Nat) < 3; omega) S800000x64 C rfl rfl 128 rfl (ix2 e l)
    (fun b hb => by
      match b with
      | ⟨0, _⟩ => rfl
      | ⟨1, _⟩ => exact absurd rfl hb)
    (by show 128 + l.val = 128 + l.val; rfl)

/-- A 64-column and a 32-column array joined along the columns, read in columns 0–63: the first. -/
theorem joined_hid (X : S800000x64.Idx → EReal) (Y : S800000x32.Idx → EReal) (e : Fin 800000) (k : Fin 64) :
    concatenate S800000x96 1 [⟨S800000x64, X⟩, ⟨S800000x32, Y⟩] concatenates_S800000x64_S800000x32_S800000x96_d1
        (ix2 e (EdgeMlp.hidRow k))
      = X (ix2 e k) :=
  concatenate_pair_apply_left (1 : Fin 2) X Y _ (ix2 e (EdgeMlp.hidRow k)) rfl (ix2 e k) (fun b => by
    match b with
    | ⟨0, _⟩ => rfl
    | ⟨1, _⟩ => rfl)

/-- Read in columns 64–95: the second. -/
theorem joined_ext (X : S800000x64.Idx → EReal) (Y : S800000x32.Idx → EReal) (e : Fin 800000) (k : Fin 32) :
    concatenate S800000x96 1 [⟨S800000x64, X⟩, ⟨S800000x32, Y⟩] concatenates_S800000x64_S800000x32_S800000x96_d1
        (ix2 e (EdgeMlp.extRow k))
      = Y (ix2 e k) :=
  concatenate_pair_apply_right (1 : Fin 2) X Y _ (ix2 e (EdgeMlp.extRow k)) rfl rfl (ix2 e k)
    (fun b hb => by
      match b with
      | ⟨0, _⟩ => rfl
      | ⟨1, _⟩ => exact absurd rfl hb)
    (by show k.val + 64 = 64 + k.val; omega)

/-! ## The two layers -/

variable (x0 : S50000x64.Idx → EReal) (x1 : S800000x64.Idx → EReal) (x2 : S800000x32.Idx → EReal)
  (x3 : S192x64.Idx → EReal) (x4 : S64.Idx → EReal) (x5 : S96x64.Idx → EReal) (x6 : S64.Idx → EReal)
  (x7 x8 : S800000.Idx → BitVec 32)

/-- Hidden unit `k` of edge `e` in the reference: the whole 192-term contraction, band by band, plus the bias. -/
theorem hidden_apply (e : Fin 800000) (k : Fin 64) :
    val_main_v18 (F := Ideal) x0 x1 x3 x4 x7 x8 (ix2 e k)
      = EdgeMlp.hidden (fun l => val_main_v6 (F := Ideal) x0 x7 (ix2 e l)) (fun l => val_main_v13 (F := Ideal) x0 x8 (ix2 e l))
          (fun l => x1 (ix2 e l)) (fun a b => x3 (ix2 a b)) (fun k => x4 (ix1 k)) k := by
  have el : ∀ k' : Fin 192, lidx_main_v15 (ix2 e k) k' = ix2 e k' := fun k' =>
    funext fun a => by match a with | ⟨0, _⟩ => rfl | ⟨1, _⟩ => rfl
  have er : ∀ k' : Fin 192, ridx_main_v15 (ix2 e k) k' = ix2 k' k := fun k' =>
    funext fun a => by match a with | ⟨0, _⟩ => rfl | ⟨1, _⟩ => rfl
  have eb : idx_main_v16 (idx_main_v17 (ix2 e k)) = ix1 k :=
    funext fun a => by match a with | ⟨0, _⟩ => rfl
  rw [val_main_v18_apply, val_main_v15_apply, val_main_v17_apply, val_main_v16_apply, eb]
  simp only [el, er]
  rw [EdgeMlp.sum_three_bands]
  unfold val_main_v14
  simp only [joined_src, joined_edge, joined_dst]
  rfl

/-- Entry (e, j) of the reference's result is the network's output `j` for edge `e`. -/
theorem result_apply (e : Fin 800000) (j : Fin 64) :
    val_main_v24 (F := Ideal) x0 x1 x2 x3 x4 x5 x6 x7 x8 (ix2 e j)
      = EdgeMlp.output (fun l => val_main_v6 (F := Ideal) x0 x7 (ix2 e l)) (fun l => val_main_v13 (F := Ideal) x0 x8 (ix2 e l))
          (fun l => x1 (ix2 e l)) (fun k => x2 (ix2 e k)) (fun a b => x3 (ix2 a b)) (fun k => x4 (ix1 k))
          (fun a b => x5 (ix2 a b)) (fun k => x6 (ix1 k)) (Ideal.ofBits .f32 0x00000000#32) j := by
  have el : ∀ k' : Fin 96, lidx_main_v20 (ix2 e j) k' = ix2 e k' := fun k' =>
    funext fun a => by match a with | ⟨0, _⟩ => rfl | ⟨1, _⟩ => rfl
  have er : ∀ k' : Fin 96, ridx_main_v20 (ix2 e j) k' = ix2 k' j := fun k' =>
    funext fun a => by match a with | ⟨0, _⟩ => rfl | ⟨1, _⟩ => rfl
  have eb : idx_main_v21 (idx_main_v22 (ix2 e j)) = ix1 j :=
    funext fun a => by match a with | ⟨0, _⟩ => rfl
  rw [val_main_v24_apply, val_main_v23_apply, val_main_v20_apply, val_main_v22_apply, val_main_v21_apply, eb,
    val_main_call0_v0_apply, val_main_call0_cst_apply]
  simp only [el, er]
  rw [EdgeMlp.sum_two_bands]
  unfold val_main_v19
  simp only [joined_hid, joined_ext, hidden_apply]
  rfl

end Cert.ReferenceIdeal.RefValue

end
-- ==== Proof.Bridge.lean ====
/-
  The two programs compute one array.

  After the kernel's run the output array is the network applied edge by edge to the arrays the region finds;
  those are the argument arrays, the host's two gathers of the node table, and the two biases as rows.  The
  reference's result, read entry by entry, is the network applied to the same per-edge rows: it prints the same two
  gathers, and it reads each bias as a 64-vector where the kernel reads the 1×64 row holding that vector.  So both
  end at one function of the nine argument arrays.
-/
import proofs.«107688_j38740605010509_1_alg».proof.Proof.KernelArray
import proofs.«107688_j38740605010509_1_alg».proof.Proof.KernelHost
import proofs.«107688_j38740605010509_1_alg».proof.Proof.ReferenceMlp

noncomputable section

namespace Cert.KernelIdeal.Whole

open Cert.KernelIdeal Cert.KernelIdeal.Gen Idealize.ShloMosaic Idealize.ShloMosaic.TcCoe Idealize.SL.Sem
open Idealize.ShloMosaic.ValueIdx
open Cert.KernelIdeal.HostSide (gathered)

/-- The output array as one function of the argument arrays: the network edge by edge over the node table's rows
    at the source and target indices, the edge and extra features, the weights, and the biases as rows. -/
def result (x0 : S50000x64.Idx → EReal) (x1 : S800000x64.Idx → EReal) (x2 : S800000x32.Idx → EReal)
    (x3 : S192x64.Idx → EReal) (x4 : S64.Idx → EReal) (x5 : S96x64.Idx → EReal) (x6 : S64.Idx → EReal)
    (x7 x8 : (⟨S800000, .i32⟩ : BufTy).Contents (Elt Ideal)) : S800000x64.Idx → EReal :=
  edgewise (gathered x0 x7) (gathered x0 x8) x1 x2 x3 (shapeCast S1x64 x4 shapeCasts_S64_S1x64) x5
    (shapeCast S1x64 x6 shapeCasts_S64_S1x64)

variable (m : (ℓ : Loc nD τ sig) → Buf (Elt Ideal) ℓ) (ρ : Dev nD → PrngReg)

/-- The output array after the run, as that function of the arguments as launched. -/
theorem final_args (c : Dev nD) :
    (dats m 0 c).arrAt 8 cfg0.N
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  rw [final, HostSide.source_rows, HostSide.target_rows, HostSide.first_bias, HostSide.second_bias,
    V_main_arg1, V_main_arg2, V_main_arg3, V_main_arg5]
  rfl

/-- The kernel's run: every weakly fair execution ends with the output array at `result` of the arguments, the
    arguments unchanged. -/
theorem run : θ_run defs (onTc (τ := τ) (main (F := Ideal))) ⟨m, fun _ => 0, ρ⟩ fun r => ∀ c : Dev nD,
      r.2.mem ((c : Thread nD τ).loc main_v16)
        = result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_args m c), (h c).2⟩) (Value.run_blocks m ρ)

/-- The reference prints the kernel's gather of the rows at the source indices, -/
theorem same_source_rows (x0 : S50000x64.Idx → EReal) (x7 : (⟨S800000, .i32⟩ : BufTy).Contents (Elt Ideal)) :
    Cert.ReferenceIdeal.Read.val_main_v6 (F := Ideal) x0 x7 = gathered x0 x7 := rfl

/-- and of the rows at the target indices. -/
theorem same_target_rows (x0 : S50000x64.Idx → EReal) (x8 : (⟨S800000, .i32⟩ : BufTy).Contents (Elt Ideal)) :
    Cert.ReferenceIdeal.Read.val_main_v13 (F := Ideal) x0 x8 = gathered x0 x8 := rfl

/-- The reference's result is the kernel's function of the arguments. -/
theorem reference_eq (x0 : S50000x64.Idx → EReal) (x1 : S800000x64.Idx → EReal) (x2 : S800000x32.Idx → EReal)
    (x3 : S192x64.Idx → EReal) (x4 : S64.Idx → EReal) (x5 : S96x64.Idx → EReal) (x6 : S64.Idx → EReal)
    (x7 x8 : (⟨S800000, .i32⟩ : BufTy).Contents (Elt Ideal)) :
    Cert.ReferenceIdeal.Read.val_main_v24 (F := Ideal) x0 x1 x2 x3 x4 x5 x6 x7 x8
      = result x0 x1 x2 x3 x4 x5 x6 x7 x8 := by
  funext i
  obtain ⟨e, j, rfl⟩ : ∃ (e : Fin 800000) (j : Fin 64), i = ix2 e j := ⟨i 0, i 1, eq_ix2 i⟩
  rw [Cert.ReferenceIdeal.RefValue.result_apply, same_source_rows, same_target_rows]
  unfold result edgewise
  simp only [HostSide.row_of_vector]

end Cert.KernelIdeal.Whole

end
-- ==== Proof.lean ====
/-
  An edge network on a graph: each of 800000 edges joins the 64 features of its source node, its own 64 features
  and the 64 features of its target node, passes them through a 192→64 affine layer, joins the result with 32 extra
  features, and passes that through a 96→64 affine layer clipped below at zero.

  The kernel gathers the source and target rows on the host and runs the two layers over blocks of 3200 edges,
  each 192- or 96-term contraction cut into its 64- and 32-row bands and computed through a narrower float format;
  the reference joins the rows and contracts once per layer.  On the extended reals a change of float format is the
  identity and a sum over consecutive indices is the sum of its bands' sums, whatever the entries — so the two
  arrays agree entry by entry with no appeal to the inputs being finite.

  The three frames are the generated ones (the reference's is its generated run with the result dropped); the
  idealization rewrote nothing, so `preserves` is trivial; `algebraic` sets the kernel's run — the output array as
  one function of the arguments (Proof/Bridge.lean, over Proof/KernelArray.lean, Proof/KernelBody.lean,
  Proof/KernelHost.lean) — beside the reference's generated run, whose result is that same function
  (Proof/ReferenceMlp.lean).  The network itself and the band law are Proof/EdgeMlp.lean.
-/
import proofs.«107688_j38740605010509_1_alg».proof.Defs
import proofs.«107688_j38740605010509_1_alg».proof.Proof.Gen.Kernel
import proofs.«107688_j38740605010509_1_alg».proof.Proof.Gen.Kernel.Skeleton
import proofs.«107688_j38740605010509_1_alg».proof.Proof.Gen.Kernel.Launch
import proofs.«107688_j38740605010509_1_alg».proof.Proof.Gen.Kernel.Points
import proofs.«107688_j38740605010509_1_alg».proof.Proof.Gen.Kernel.Frame
import proofs.«107688_j38740605010509_1_alg».proof.Proof.Gen.KernelIdeal
import proofs.«107688_j38740605010509_1_alg».proof.Proof.Gen.KernelIdeal.Skeleton
import proofs.«107688_j38740605010509_1_alg».proof.Proof.Gen.KernelIdeal.Launch
import proofs.«107688_j38740605010509_1_alg».proof.Proof.Gen.KernelIdeal.Points
import proofs.«107688_j38740605010509_1_alg».proof.Proof.Gen.KernelIdeal.Frame
import proofs.«107688_j38740605010509_1_alg».proof.Proof.Gen.ReferenceIdeal
import proofs.«107688_j38740605010509_1_alg».proof.Proof.Gen.Pre_finite_inputs
import proofs.«107688_j38740605010509_1_alg».proof.Proof.Gen.KernelIdeal.Value
import proofs.«107688_j38740605010509_1_alg».proof.Proof.Gen.ReferenceIdeal.Run
import proofs.«107688_j38740605010509_1_alg».proof.Proof.Gen.ReferenceIdeal.Read
import proofs.«107688_j38740605010509_1_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at one array: the kernel's output array is the
    network edge by edge over the arguments, and the reference's result is that same function of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  exact (Cert.ReferenceIdeal.Read.val_main_v24_eq _ _ _ _ _ _ _ _ _).trans
    (Cert.KernelIdeal.Whole.reference_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
